-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S640000 .f32) (main_arg2 : FVec F S128x384 .f32) (main_arg3 : FVec F S128 .f32) (main_arg4 : FVec F S128 .f32) (main_arg5 : FVec F S128 .f32) (main_arg6 : IVec S640000 32) (main_arg7 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S384x128 : Shape := ⟨2, ![384, 128]⟩
abbrev S128x128 : Shape := ⟨2, ![128, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩

abbrev nBuf : Space → Nat
  | .hbm => 70
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x384, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x1, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S640000x1, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S384x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  transposes_S128x384_S384x128_1_0 : S128x384.Transposes [1, 0] S384x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S10000x128.size a
  hwx0_9 : ∀ i : grid0.Coords, EltTy.bits .f32 = 32 ∨ (Rect.block (s := S10000x128) S1000x128.size (cc0_transform_9 i) (hinb0_9 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S1000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S128x384 : Shape := ⟨2, ![128, 384]⟩
abbrev S128 : Shape := ⟨1, ![128]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S10000x384 : Shape := ⟨2, ![10000, 384]⟩
abbrev S384x128 : Shape := ⟨2, ![384, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S128x384, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S10000, .f32⟩
  | .hbm, ⟨12, _⟩ => ⟨S640000x1, .i32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S10000x128, .f32⟩
  | .hbm, ⟨23, _⟩ => ⟨S10000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x1, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S640000x1, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S10000x128, .f32⟩
  | .hbm, ⟨58, _⟩ => ⟨S640000x1, .i32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x384, .f32⟩
  | .hbm, ⟨63, _⟩ => ⟨S384x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S_, .f32⟩
  | .hbm, ⟨81, _⟩ => ⟨S10000x1, .f32⟩
  | .hbm, ⟨82, _⟩ => ⟨S10000x1, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000x1, .f32⟩
  | .hbm, ⟨87, _⟩ => ⟨S10000x1, .f32⟩
  | .hbm, ⟨88, _⟩ => ⟨S10000x1, .f32⟩
  | .hbm, ⟨89, _⟩ => ⟨S10000x128, .f32⟩
  | .hbm, ⟨90, _⟩ => ⟨S10000x128, .f32⟩
  | .hbm, ⟨91, _⟩ => ⟨S1x128, .f32⟩
  | .hbm, ⟨92, _⟩ => ⟨S10000x128, .f32⟩
  | .hbm, ⟨93, _⟩ => ⟨S10000x128, .f32⟩
  | .hbm, ⟨94, _⟩ => ⟨S1x128, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S10000x128, .f32⟩
  | .hbm, ⟨99, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  concatenates_S10000x128_S10000x128_S10000x128_S10000x384_d1 : Shape.Concatenates [S10000x128, S10000x128, S10000x128] S10000x384 1
  transposes_S128x384_S384x128_1_0 : S128x384.Transposes [1, 0] S384x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x384_S384x128_S10000x128_1_0_0_1_n_n_wf : DotDims.WF S10000x384 S384x128 S10000x128 [1] [0] [0] [1] [] []

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf

class Facts : Prop extends Facts₀ where

variable [Facts]
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.RowNorm.lean ====
/-
  The mathematics of one output row, with no program in sight.

  A row of the result depends on one row of each of the three hop feature matrices. First the three rows go through
  a dense layer whose weight matrix is cut into three bands of 128 input columns: entry `k` of the pre-activation is
  the sum of the three rows' inner products with their bands' column `k`, plus the bias (`dense3`). Then the 128
  pre-activations of the row are normalised: their mean is subtracted, the result is scaled by the reciprocal square
  root of the mean square deviation plus a small constant, multiplied by a gain, shifted by an offset and clipped
  below at zero (`rowLN`).

  One law is stated here: a sum over 384 consecutive indices is the sum of the three sums over its thirds
  (`sum_three_bands`). It holds in any commutative additive monoid, so on the extended reals it needs no finiteness.
-/
import Idealize.ShloMosaic.PureOps.Ideal
import Idealize.ShloMosaic.PureOps.Ideal.Laws
import Idealize.ShloMosaic.Lib.ValueIdx

noncomputable section

open scoped BigOperators

namespace Cert.RowNorm

open Idealize.ShloMosaic Idealize.ShloMosaic.ValueIdx

/-- The row length as the programs write it: the f32 word of 128. -/
abbrev len : EReal := Ideal.ofBits .f32 0x43000000#32
/-- The small constant added to the variance: the f32 word nearest to 1e-5, the same word in both programs. -/
abbrev eps : EReal := Ideal.ofBits .f32 0x3727C5AC#32
/-- The clipping level: the f32 zero word. -/
abbrev floor0 : EReal := Ideal.ofBits .f32 0x00000000#32

/-- The mean of a row of 128 entries. -/
def mean (x : Fin 128 → EReal) : EReal := Ideal.div (∑ k : Fin 128, x k) len

/-- An entry less the row's mean. -/
def centred (x : Fin 128 → EReal) (j : Fin 128) : EReal := x j - mean x

/-- The mean square deviation of a row. -/
def variance (x : Fin 128 → EReal) : EReal := mean fun k => centred x k * centred x k

/-- A row normalised, scaled by `g`, shifted by `b` and clipped below at zero, at column `j`. -/
def rowLN (x g b : Fin 128 → EReal) (j : Fin 128) : EReal :=
  max (centred x j * Ideal.rsqrt (variance x + eps) * g j + b j) floor0

/-- One pre-activation: three rows against three weight columns, added in the order first, second, third, then the bias. -/
def dense3 (a0 a1 a2 w0 w1 w2 : Fin 128 → EReal) (b : EReal) : EReal :=
  (∑ c : Fin 128, a0 c * w0 c) + (∑ c : Fin 128, a1 c * w1 c) + (∑ c : Fin 128, a2 c * w2 c) + b

/-- A sum over 384 consecutive indices is the sum over the first 128, plus the sum over the next 128, plus the sum
    over the last 128. -/
theorem sum_three_bands {M : Type*} [AddCommMonoid M] (f : Fin 384 → M) :
    ∑ k : Fin 384, f k
      = (∑ c : Fin 128, f ⟨c.val, by omega⟩) + (∑ c : Fin 128, f ⟨128 + c.val, by omega⟩)
        + (∑ c : Fin 128, f ⟨256 + c.val, by omega⟩) := by
  have h1 := Fin.sum_univ_add (M := M) (a := 128 + 128) (b := 128) f
  have h2 := Fin.sum_univ_add (M := M) (a := 128) (b := 128) fun i : Fin (128 + 128) => f (Fin.castAdd 128 i)
  rw [h2] at h1
  exact h1

/-- The layer at row `n`, column `j`, as a function of whole arrays: `h0 h1 h2` the three hop feature matrices
    (10000 rows of 128), `W` the weight matrix as given (128 output rows by 384 input columns, so input column
    `128·s + c` of output `k` is band `s`), `b g be` the bias, gain and offset vectors. -/
def layer (h0 h1 h2 : (⟨2, ![10000, 128]⟩ : Shape).Idx → EReal) (W : (⟨2, ![128, 384]⟩ : Shape).Idx → EReal)
    (b g be : (⟨1, ![128]⟩ : Shape).Idx → EReal) (n : Fin 10000) (j : Fin 128) : EReal :=
  rowLN (fun k => dense3 (fun c => h0 (ix2 n c)) (fun c => h1 (ix2 n c)) (fun c => h2 (ix2 n c))
      (fun c => W (ix2 k (⟨c.val, by omega⟩ : Fin 384))) (fun c => W (ix2 k (⟨128 + c.val, by omega⟩ : Fin 384)))
      (fun c => W (ix2 k (⟨256 + c.val, by omega⟩ : Fin 384))) (b (ix1 k)))
    (fun k => g (ix1 k)) (fun k => be (ix1 k)) j

/-- The same as one array over the result's index set. -/
def layerArr (h0 h1 h2 : (⟨2, ![10000, 128]⟩ : Shape).Idx → EReal) (W : (⟨2, ![128, 384]⟩ : Shape).Idx → EReal)
    (b g be : (⟨1, ![128]⟩ : Shape).Idx → EReal) : (⟨2, ![10000, 128]⟩ : Shape).Idx → EReal :=
  fun i => layer h0 h1 h2 W b g be (i 0) (i 1)

theorem layerArr_apply (h0 h1 h2 : (⟨2, ![10000, 128]⟩ : Shape).Idx → EReal) (W : (⟨2, ![128, 384]⟩ : Shape).Idx → EReal)
    (b g be : (⟨1, ![128]⟩ : Shape).Idx → EReal) (n : Fin 10000) (j : Fin 128) :
    layerArr h0 h1 h2 W b g be (ix2 n j) = layer h0 h1 h2 W b g be n j := rfl

end Cert.RowNorm

end
-- ==== Proof.BlockOps.lean ====
/-
  One block of 1000 rows, read at an entry.

  The body works on a block of 1000 rows by 128 columns. Here each step of its arithmetic on whole blocks is read at
  an entry (p, q), over arbitrary blocks, at the exact (extended-real) values:

  * the dense layer: the three products into zero accumulators, added first-second-third, plus the bias row
    broadcast down the block, is `dense3` of the three rows `p` and the three weight columns `q` (`pre_apply`);
  * a sum along the columns, kept as a column, divided by the row length, is the mean of row `p` (`meanCol_apply`);
  * a block less its mean column broadcast across is the centred row (`centre_apply`);
  * the last step — times the reciprocal root column, times the gain row, plus the offset row, clipped at zero —
    reads the column at (p, 0) and the rows at (0, q) (`norm_apply`).

  Nothing here is particular to the program: the blocks, the shape facts and the dot record are variables.
-/
import Idealize.ShloMosaic.Lib.Pipeline.Value
import Idealize.ShloMosaic.Lib.ValueIdx
import Idealize.ShloMosaic.Lib.ValueLayout
import Idealize.ShloMosaic.PureOps.Ideal.Laws
import proofs.«118158_j32899449488056_2_alg».proof.Proof.LibColumnCast
import proofs.«118158_j32899449488056_2_alg».proof.Proof.LibColumnBroadcast
import proofs.«118158_j32899449488056_2_alg».proof.Proof.LibPlainMatmul
import proofs.«118158_j32899449488056_2_alg».proof.Proof.RowNorm

noncomputable section

open scoped BigOperators

namespace Cert.BlockOps

open Idealize.ShloMosaic Idealize.ShloMosaic.ValueIdx Cert.RowNorm Cert.LibColumnCast Cert.LibColumnBroadcast

/-- A block of rows, its one-column and rank-one companions, a single row, and a square of weights. -/
abbrev Blk : Shape := ⟨2, ![1000, 128]⟩
abbrev Col : Shape := ⟨2, ![1000, 1]⟩
abbrev Vec1 : Shape := ⟨1, ![1000]⟩
abbrev Row : Shape := ⟨2, ![1, 128]⟩
abbrev Sq : Shape := ⟨2, ![128, 128]⟩

/-- The sum of a block along its columns, at row `p`, is the sum of that row's 128 entries. -/
theorem rowSum_apply (y : FVec Ideal Blk .f32) (h : Blk.Reduces [1] Vec1) (hφ : FKind.Formats .f32)
    (hacc : (0x00000000#32 : BitVec (FTy.bits .f32)) = FKind.add.neutral .f32 hφ) (p : Fin 1000) :
    multiReduction .add [1] Vec1 y 0x00000000#32 h hφ hacc (ix1 p) = ∑ k : Fin 128, y (ix2 p k) := by
  refine (Ideal.multiReduction_add_single y 0x00000000#32 h hφ hacc (ix1 p)).trans ?_
  exact Finset.sum_congr rfl fun k _ => congrArg y (funext fun a => Fin.ext (by
    match a with
    | ⟨0, _⟩ => rfl
    | ⟨1, _⟩ => rfl))

/-- The row sums kept as a column and divided by the row length: at (p, u) the mean of row `p`. -/
theorem meanCol_apply (y : FVec Ideal Blk .f32) (h : Blk.Reduces [1] Vec1) (hφ : FKind.Formats .f32)
    (hacc : (0x00000000#32 : BitVec (FTy.bits .f32)) = FKind.add.neutral .f32 hφ) (hc : Vec1.ShapeCasts Col)
    (p : Fin 1000) (u : Fin 1) :
    divf (shapeCast Col (multiReduction .add [1] Vec1 y 0x00000000#32 h hφ hacc) hc)
        (broadcast Col (Scalar.ofBits (F := Ideal) .f32 0x43000000#32)) (ix2 p u)
      = mean fun k => y (ix2 p k) := by
  rw [divf_apply, shapeCast_a_a1_apply, rowSum_apply, broadcast_apply]
  rfl

/-- A block less its mean column broadcast across the columns: at (p, q) the centred entry of row `p`. -/
theorem centre_apply (y : FVec Ideal Blk .f32) (h : Blk.Reduces [1] Vec1) (hφ : FKind.Formats .f32)
    (hacc : (0x00000000#32 : BitVec (FTy.bits .f32)) = FKind.add.neutral .f32 hφ) (hc : Vec1.ShapeCasts Col)
    (hb : Col.Broadcasts Blk) (p : Fin 1000) (q : Fin 128) :
    subf y (broadcastTo Blk (divf (shapeCast Col (multiReduction .add [1] Vec1 y 0x00000000#32 h hφ hacc) hc)
        (broadcast Col (Scalar.ofBits (F := Ideal) .f32 0x43000000#32))) hb) (ix2 p q)
      = centred (fun k => y (ix2 p k)) q := by
  rw [subf_apply, broadcastTo_a1_ab_apply, meanCol_apply]
  rfl

/-- The dense layer on a block: three products into zero accumulators added in order, plus the bias row broadcast down
    the block, at (p, k) is `dense3` of row `p` of each left factor and column `k` of each right factor. Rounding
    the factors to a narrower format changes nothing at the exact values. -/
theorem pre_apply (x0 x1 x2 : FVec Ideal Blk .f32) (w0 w1 w2 : FVec Ideal Sq .f32) (b : FVec Ideal Row .f32)
    (d : DotDims Blk Sq Blk) (hd : d = DotDims.plain 1000 128 128) (hB : Blk.ShapeCasts Blk) (hW : Sq.ShapeCasts Sq)
    (hR : Row.ShapeCasts Row) (hbr : Row.Broadcasts Blk) (hlt : FTy.bits .bf16 < FTy.bits .f32)
    (p : Fin 1000) (k : Fin 128) :
    addf (addf (addf
        (matmul d none (truncf .bf16 x0 hlt) (truncf .bf16 (shapeCast Sq w0 hW) hlt) (constant Blk .f32 0x00000000#32))
        (matmul d none (truncf .bf16 (shapeCast Blk x1 hB) hlt) (truncf .bf16 (shapeCast Sq w1 hW) hlt) (constant Blk .f32 0x00000000#32)))
        (matmul d none (truncf .bf16 (shapeCast Blk x2 hB) hlt) (truncf .bf16 (shapeCast Sq w2 hW) hlt) (constant Blk .f32 0x00000000#32)))
        (broadcastTo Blk (shapeCast Row b hR) hbr) (ix2 p k)
      = dense3 (fun c => x0 (ix2 p c)) (fun c => x1 (ix2 p c)) (fun c => x2 (ix2 p c))
          (fun c => w0 (ix2 c k)) (fun c => w1 (ix2 c k)) (fun c => w2 (ix2 c k)) (b (ix2 (0 : Fin 1) k)) := by
  subst hd
  simp only [shapeCast_self]
  rw [addf_apply, addf_apply, addf_apply, matmul_plain_zero_apply, matmul_plain_zero_apply, matmul_plain_zero_apply,
    broadcastTo_1b_ab_apply]
  rfl

/-- The last step on a block: centred entries times the reciprocal-root column, times the gain row, plus the offset
    row, clipped below at zero. -/
theorem norm_apply (cen : FVec Ideal Blk .f32) (v : FVec Ideal Col .f32) (e : Ideal .f32) (g be : FVec Ideal Row .f32)
    (hb : Col.Broadcasts Blk) (hR : Row.ShapeCasts Row) (hbr : Row.Broadcasts Blk) (p : Fin 1000) (q : Fin 128) :
    maximumf (addf (mulf (mulf cen (broadcastTo Blk (rsqrt (addf v (broadcast Col e))) hb))
        (broadcastTo Blk (shapeCast Row g hR) hbr)) (broadcastTo Blk (shapeCast Row be hR) hbr))
        (broadcast Blk (Scalar.ofBits (F := Ideal) .f32 0x00000000#32)) (ix2 p q)
      = max (cen (ix2 p q) * Ideal.rsqrt (v (ix2 p (0 : Fin 1)) + e) * g (ix2 (0 : Fin 1) q) + be (ix2 (0 : Fin 1) q)) floor0 := by
  simp only [shapeCast_self]
  rw [maximumf_apply, addf_apply, mulf_apply, mulf_apply, broadcastTo_a1_ab_apply, broadcastTo_1b_ab_apply,
    broadcastTo_1b_ab_apply, broadcast_apply]
  rfl

end Cert.BlockOps

end
-- ==== Proof.BlockValue.lean ====
/-
  What the body computes from its blocks, entry by entry.

  At a grid point the body holds three blocks of 1000 hop-feature rows, three 128 × 128 weight squares, and the bias,
  gain and offset rows. Its stored value at (p, q) depends only on row `p` of the three feature blocks: it is the
  normalised, scaled, shifted and clipped pre-activation row of `RowNorm` (`stored_apply`). The pre-activations of
  the block are named `preV`; the centred block is the body's first named value (`centredV_apply`), the variance
  column its second (`varV_apply`).
-/
import proofs.«118158_j32899449488056_2_alg».proof.Proof.Gen.KernelIdeal.Skeleton
import proofs.«118158_j32899449488056_2_alg».proof.Proof.BlockOps

noncomputable section

open scoped BigOperators

namespace Cert.KernelIdeal.Block

open Cert.KernelIdeal Cert.KernelIdeal.Gen Idealize.ShloMosaic Idealize.ShloMosaic.ValueIdx
open Cert.RowNorm Cert.BlockOps

variable (x0 x1 x2 : Vec Ideal S1000x128 .f32) (w0 w1 w2 : Vec Ideal S128x128 .f32) (b : Vec Ideal S1x128 .f32)

/-- The block of pre-activations: the three products into zero accumulators, added in order, plus the bias row. -/
def preV : FVec Ideal S1000x128 .f32 :=
  addf (addf (addf
      (matmul dot_S1000x128_S128x128_S1000x128_1_0_0_1_n_n none (truncf .bf16 x0 bitsLt_bf16_f32)
        (truncf .bf16 (shapeCast S128x128 w0 shapeCasts_S128x128_S128x128) bitsLt_bf16_f32) (constant S1000x128 .f32 0x00000000#32))
      (matmul dot_S1000x128_S128x128_S1000x128_1_0_0_1_n_n none
        (truncf .bf16 (shapeCast S1000x128 x1 shapeCasts_S1000x128_S1000x128) bitsLt_bf16_f32)
        (truncf .bf16 (shapeCast S128x128 w1 shapeCasts_S128x128_S128x128) bitsLt_bf16_f32) (constant S1000x128 .f32 0x00000000#32)))
      (matmul dot_S1000x128_S128x128_S1000x128_1_0_0_1_n_n none
        (truncf .bf16 (shapeCast S1000x128 x2 shapeCasts_S1000x128_S1000x128) bitsLt_bf16_f32)
        (truncf .bf16 (shapeCast S128x128 w2 shapeCasts_S128x128_S128x128) bitsLt_bf16_f32) (constant S1000x128 .f32 0x00000000#32)))
    (broadcastTo S1000x128 (shapeCast S1x128 b shapeCasts_S1x128_S1x128) broadcasts_S1x128_S1000x128)

/-- Row `p` of the pre-activations, as the dense layer of row `p` of each feature block. -/
def preRow (p : Fin 1000) (k : Fin 128) : EReal :=
  dense3 (fun c => x0 (ix2 p c)) (fun c => x1 (ix2 p c)) (fun c => x2 (ix2 p c))
    (fun c => w0 (ix2 c k)) (fun c => w1 (ix2 c k)) (fun c => w2 (ix2 c k)) (b (ix2 (0 : Fin 1) k))

theorem preV_apply (p : Fin 1000) (k : Fin 128) : preV x0 x1 x2 w0 w1 w2 b (ix2 p k) = preRow x0 x1 x2 w0 w1 w2 b p k :=
  pre_apply x0 x1 x2 w0 w1 w2 b dot_S1000x128_S128x128_S1000x128_1_0_0_1_n_n rfl shapeCasts_S1000x128_S1000x128
    shapeCasts_S128x128_S128x128 shapeCasts_S1x128_S1x128 broadcasts_S1x128_S1000x128 bitsLt_bf16_f32 p k

/-- The body's first named value is the pre-activation block less its row means. -/
theorem centredV_apply (p : Fin 1000) (q : Fin 128) :
    k0_pay2 x0 x1 x2 w0 w1 w2 b (ix2 p q) = centred (preRow x0 x1 x2 w0 w1 w2 b p) q :=
  (centre_apply (preV x0 x1 x2 w0 w1 w2 b) reduces_S1000x128_S1000 (.inl rfl) rfl shapeCasts_S1000_S1000x1
      broadcasts_S1000x1_S1000x128 p q).trans
    (congrArg (fun r => centred r q) (funext fun k => preV_apply x0 x1 x2 w0 w1 w2 b p k))

/-- The body's second named value is the column of row variances. -/
theorem varV_apply (p : Fin 1000) (u : Fin 1) :
    k0_pay3 x0 x1 x2 w0 w1 w2 b (ix2 p u) = variance (preRow x0 x1 x2 w0 w1 w2 b p) :=
  (meanCol_apply (mulf (k0_pay2 x0 x1 x2 w0 w1 w2 b) (k0_pay2 x0 x1 x2 w0 w1 w2 b)) reduces_S1000x128_S1000 (.inl rfl) rfl
      shapeCasts_S1000_S1000x1 p u).trans
    (congrArg mean (funext fun k => by
      show k0_pay2 x0 x1 x2 w0 w1 w2 b (ix2 p k) * k0_pay2 x0 x1 x2 w0 w1 w2 b (ix2 p k) = _
      rw [centredV_apply]))

/-- What the body stores at (p, q): the normalised row `p` of pre-activations at column `q`. -/
theorem stored_apply (g be : Vec Ideal S1x128 .f32) (p : Fin 1000) (q : Fin 128) :
    k0_pay1 (k0_pay2 x0 x1 x2 w0 w1 w2 b) (k0_pay3 x0 x1 x2 w0 w1 w2 b) (Scalar.ofBits .f32 0x3727C5AC#32) g be (ix2 p q)
      = rowLN (preRow x0 x1 x2 w0 w1 w2 b p) (fun k => g (ix2 (0 : Fin 1) k)) (fun k => be (ix2 (0 : Fin 1) k)) q := by
  refine (norm_apply (k0_pay2 x0 x1 x2 w0 w1 w2 b) (k0_pay3 x0 x1 x2 w0 w1 w2 b) (Scalar.ofBits (F := Ideal) .f32 0x3727C5AC#32) g be
    broadcasts_S1000x1_S1000x128 shapeCasts_S1x128_S1x128 broadcasts_S1x128_S1000x128 p q).trans ?_
  rw [centredV_apply, varV_apply]
  rfl

end Cert.KernelIdeal.Block

end
-- ==== Proof.HostEarly.lean ====
/-
  The host operations before the region, in two parts.

  The first ten host operations count the in-degree of every node (a scatter-add of ones by destination) and clip it
  below at one; the remaining fifty-one build everything the region reads. The buffers after the first ten are named
  `early`; the arrays the region finds are what the remaining operations leave from there (`V_eq`). Of `early` only
  the clipped degree differs from the launch memory, and it is the reference's term for it (`stage_deg`); the
  arguments are untouched (`early_arg0` … `early_arg7`).
-/
import proofs.«118158_j32899449488056_2_alg».proof.Proof.Gen.KernelIdeal.Frame
import proofs.«118158_j32899449488056_2_alg».proof.Proof.Gen.ReferenceIdeal.Read
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v3 val_main_v4 val_main_v7 val_main_v15 val_main_v18 val_main_v19 val_main_v24 val_main_v36 val_main_v41)

/-! ## The host prefix in two parts -/

/-- Running one list of host operations after another is running their concatenation. -/
theorem after_append {τ : Topo} {sig : RefSig} {Val : EltTy → Type} :
    ∀ (l₁ l₂ : List (HloOp τ sig Val)) (W : Valuation τ sig Val), after (l₁ ++ l₂) W = after l₂ (after l₁ W)
  | [], _, _ => rfl
  | op :: l₁, l₂, W => after_append l₁ l₂ (op.result W)

variable (m : (ℓ : Loc nD τ sig) → Buf (Elt Ideal) ℓ)

/-- The buffers after the first ten host operations: the in-degree count and its clip at one. -/
def early (c : Dev nD) : Valuation τ sig (Elt Ideal) :=
  after hostOps0_1 (after hostOps0 (fun b => m (c, b)))

/-- The region finds what the remaining host operations leave from there. -/
theorem V_eq (c : Dev nD) (b : Ref sig .tc) : V m c b = after hostOps0_2 (early m c) (Proc.devRef .tc b) := by
  show after (List.flatten [hostOps0, hostOps0_1, hostOps0_2]) (fun b => m (c, b)) (Proc.devRef .tc b) = _
  simp only [List.flatten_cons, List.flatten_nil, List.append_nil, after_append]
  rfl

/-- The clipped in-degree is the reference's. -/
theorem stage_deg (c : Dev nD) :
    early m c (Proc.devRef .tc main_v4) = val_main_v4 (F := Ideal) (m (c, Proc.devRef .tc main_arg7)) := by
  unfold early
  simp only [hostOps0, hostOps0_1]
  after_results_simp
  simp only [TRef.toBuf, TRef.ofBuf, cast_eq, id_eq]
  rfl

theorem early_arg0 (c : Dev nD) : early m c (Proc.devRef .tc main_arg0) = m (c, Proc.devRef .tc main_arg0) := by
  unfold early; simp only [hostOps0, hostOps0_1]; after_results_simp <;> rfl
theorem early_arg1 (c : Dev nD) : early m c (Proc.devRef .tc main_arg1) = m (c, Proc.devRef .tc main_arg1) := by
  unfold early; simp only [hostOps0, hostOps0_1]; after_results_simp <;> rfl
theorem early_arg2 (c : Dev nD) : early m c (Proc.devRef .tc main_arg2) = m (c, Proc.devRef .tc main_arg2) := by
  unfold early; simp only [hostOps0, hostOps0_1]; after_results_simp <;> rfl
theorem early_arg3 (c : Dev nD) : early m c (Proc.devRef .tc main_arg3) = m (c, Proc.devRef .tc main_arg3) := by
  unfold early; simp only [hostOps0, hostOps0_1]; after_results_simp <;> rfl
theorem early_arg4 (c : Dev nD) : early m c (Proc.devRef .tc main_arg4) = m (c, Proc.devRef .tc main_arg4) := by
  unfold early; simp only [hostOps0, hostOps0_1]; after_results_simp <;> rfl
theorem early_arg5 (c : Dev nD) : early m c (Proc.devRef .tc main_arg5) = m (c, Proc.devRef .tc main_arg5) := by
  unfold early; simp only [hostOps0, hostOps0_1]; after_results_simp <;> rfl
theorem early_arg6 (c : Dev nD) : early m c (Proc.devRef .tc main_arg6) = m (c, Proc.devRef .tc main_arg6) := by
  unfold early; simp only [hostOps0, hostOps0_1]; after_results_simp <;> rfl
theorem early_arg7 (c : Dev nD) : early m c (Proc.devRef .tc main_arg7) = m (c, Proc.devRef .tc main_arg7) := by
  unfold early; simp only [hostOps0, hostOps0_1]; after_results_simp <;> rfl

end Cert.KernelIdeal.Host

end
-- ==== Proof.HostParams.lean ====
/-
  The weight bands and the parameter rows, as the region finds them.

  The host transposes the weight matrix and cuts it into three bands of 128 rows, and reshapes the bias, gain and
  offset vectors to single rows. Band `s` at (c, k) is the weight matrix at (k, 128·s + c) (`band0_apply`,
  `band1_apply`, `band2_apply`), and each row at (0, k) is its vector at k (`bias_apply`, `gain_apply`,
  `offset_apply`).
-/
import proofs.«118158_j32899449488056_2_alg».proof.Proof.HostEarly
import proofs.«118158_j32899449488056_2_alg».proof.Proof.Gen.ReferenceIdeal.Read
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v3 val_main_v4 val_main_v7 val_main_v15 val_main_v18 val_main_v19 val_main_v24 val_main_v36 val_main_v41)

variable (m : (ℓ : Loc nD τ sig) → Buf (Elt Ideal) ℓ)

/-! ## The weight bands and the parameter rows -/

/-- A band of the transposed weight matrix: rows `off … off + 127`. -/
theorem band_read (W : S128x384.Idx → EReal) (off : Nat) (hs : S384x128.Slices ![off, 0] S128x128) (c k : Fin 128)
    (j : Fin 384) (hj : j.val = off + c.val) :
    extractStridedSlice S128x128 ![off, 0] (transpose S384x128 [1, 0] W transposes_S128x384_S384x128_1_0) hs (ix2 c k)
      = W (ix2 k j) := by
  refine (extractStridedSlice_apply ![off, 0] _ hs (ix2 c k) (ix2 j k) fun a => ?_).trans ?_
  · match a with
    | ⟨0, _⟩ => exact hj
    | ⟨1, _⟩ => show k.val = 0 + k.val; omega
  · exact transpose_apply [1, 0] W transposes_S128x384_S384x128_1_0 (ix2 j k) (ix2 k j) fun b => by
      match b with
      | ⟨0, _⟩ => rfl
      | ⟨1, _⟩ => rfl

theorem band0_apply (c : Dev nD) (c' k : Fin 128) :
    (V m c main_v43 : S128x128.Idx → EReal) (ix2 c' k)
      = (m ((c : Thread nD τ).loc main_arg2) : S128x384.Idx → EReal) (ix2 k (⟨c'.val, by omega⟩ : Fin 384)) := by
  have e : (V m c main_v43 : S128x128.Idx → EReal)
      = extractStridedSlice S128x128 ![0, 0] (transpose S384x128 [1, 0] (m ((c : Thread nD τ).loc main_arg2)) transposes_S128x384_S384x128_1_0)
          slices_S384x128_S128x128_0_0 := by
    rw [V_eq]
    simp only [hostOps0_2]
    after_results_simp
    rw [early_arg2]
  rw [e]
  exact band_read _ 0 slices_S384x128_S128x128_0_0 c' k _ (by show c'.val = 0 + c'.val; omega)

theorem band1_apply (c : Dev nD) (c' k : Fin 128) :
    (V m c main_v44 : S128x128.Idx → EReal) (ix2 c' k)
      = (m ((c : Thread nD τ).loc main_arg2) : S128x384.Idx → EReal) (ix2 k (⟨128 + c'.val, by omega⟩ : Fin 384)) := by
  have e : (V m c main_v44 : S128x128.Idx → EReal)
      = extractStridedSlice S128x128 ![128, 0] (transpose S384x128 [1, 0] (m ((c : Thread nD τ).loc main_arg2)) transposes_S128x384_S384x128_1_0)
          slices_S384x128_S128x128_128_0 := by
    rw [V_eq]
    simp only [hostOps0_2]
    after_results_simp
    rw [early_arg2]
  rw [e]
  exact band_read _ 128 slices_S384x128_S128x128_128_0 c' k _ rfl

theorem band2_apply (c : Dev nD) (c' k : Fin 128) :
    (V m c main_v45 : S128x128.Idx → EReal) (ix2 c' k)
      = (m ((c : Thread nD τ).loc main_arg2) : S128x384.Idx → EReal) (ix2 k (⟨256 + c'.val, by omega⟩ : Fin 384)) := by
  have e : (V m c main_v45 : S128x128.Idx → EReal)
      = extractStridedSlice S128x128 ![256, 0] (transpose S384x128 [1, 0] (m ((c : Thread nD τ).loc main_arg2)) transposes_S128x384_S384x128_1_0)
          slices_S384x128_S128x128_256_0 := by
    rw [V_eq]
    simp only [hostOps0_2]
    after_results_simp
    rw [early_arg2]
  rw [e]
  exact band_read _ 256 slices_S384x128_S128x128_256_0 c' k _ rfl

theorem bias_apply (c : Dev nD) (k : Fin 128) :
    (V m c main_v46 : S1x128.Idx → EReal) (ix2 (0 : Fin 1) k) = (m ((c : Thread nD τ).loc main_arg3) : S128.Idx → EReal) (ix1 k) := by
  have e : (V m c main_v46 : S1x128.Idx → EReal) = shapeCast S1x128 (m ((c : Thread nD τ).loc main_arg3)) shapeCasts_S128_S1x128 := by
    rw [V_eq]
    simp only [hostOps0_2]
    after_results_simp
    rw [early_arg3]
    rfl
  rw [e]
  exact shapeCast_a_1a_apply _ shapeCasts_S128_S1x128 (0 : Fin 1) k

theorem gain_apply (c : Dev nD) (k : Fin 128) :
    (V m c main_v47 : S1x128.Idx → EReal) (ix2 (0 : Fin 1) k) = (m ((c : Thread nD τ).loc main_arg4) : S128.Idx → EReal) (ix1 k) := by
  have e : (V m c main_v47 : S1x128.Idx → EReal) = shapeCast S1x128 (m ((c : Thread nD τ).loc main_arg4)) shapeCasts_S128_S1x128 := by
    rw [V_eq]
    simp only [hostOps0_2]
    after_results_simp
    rw [early_arg4]
    rfl
  rw [e]
  exact shapeCast_a_1a_apply _ shapeCasts_S128_S1x128 (0 : Fin 1) k

theorem offset_apply (c : Dev nD) (k : Fin 128) :
    (V m c main_v48 : S1x128.Idx → EReal) (ix2 (0 : Fin 1) k) = (m ((c : Thread nD τ).loc main_arg5) : S128.Idx → EReal) (ix1 k) := by
  have e : (V m c main_v48 : S1x128.Idx → EReal) = shapeCast S1x128 (m ((c : Thread nD τ).loc main_arg5)) shapeCasts_S128_S1x128 := by
    rw [V_eq]
    simp only [hostOps0_2]
    after_results_simp
    rw [early_arg5]
    rfl
  rw [e]
  exact shapeCast_a_1a_apply _ shapeCasts_S128_S1x128 (0 : Fin 1) k

end Cert.KernelIdeal.Host

end
-- ==== Proof.KernelArray.lean ====
/-
  From the blocks to the whole result array.

  The grid has ten points; point `t` works on rows `1000·t … 1000·t + 999` of the three hop feature matrices and
  writes the same rows of the result, while the weight squares and the three parameter rows are the same whole arrays
  at every point. So an entry of a feature block at (p, c) is the matrix at (1000·t + p, c) (`rows0_apply`,
  `rows1_apply`, `rows2_apply`), and what point `t` writes back is block `t` of ONE function of the arrays the region
  found: the layer of `RowNorm` (`flushed_eq`). The ten blocks cover the 10000 rows (`cover`), hence the result
  array ends holding that function (`final`), and the run is restated with it (`run`).
-/
import proofs.«118158_j32899449488056_2_alg».proof.Proof.Gen.KernelIdeal.Value
import proofs.«118158_j32899449488056_2_alg».proof.Proof.BlockValue
import proofs.«118158_j32899449488056_2_alg».proof.Proof.HostParams

noncomputable section

namespace Cert.KernelIdeal.Whole

open Cert.KernelIdeal Cert.KernelIdeal.Gen Cert.KernelIdeal.Value Cert.KernelIdeal.Block Cert.KernelIdeal.Host
open Idealize.ShloMosaic Idealize.ShloMosaic.TcCoe Idealize.SL.Sem Idealize.ShloMosaic.ValueIdx Cert.RowNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten points: the three feature windows move with the result window down the rows,
    every other window stays at its one block, and the result window's row-block number is at most 9. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 9 ∧ win0_9.index t (1 : Fin 2) = 0 :=
  (by decide +kernel : ∀ t : Fin grid0.N, _)

/-- Every row block is some point's. -/
theorem idx_onto : ∀ q0 : Fin 10, ∃ t : Fin cfg0.N, win0_9.index t = ![q0.val, 0] :=
  (by decide +kernel : ∀ q0 : Fin 10, ∃ t : Fin grid0.N, win0_9.index t = ![q0.val, 0])

/-! ## The blocks, read off the arrays

Each window's block at a point is read through the window off an ARBITRARY array of the window's type first (the
`read_…` lemmas: index arithmetic only), and only then off the array the region finds. -/

theorem read_rows0 (c : Dev nD) (A : Buf (Elt Ideal) ((c : Thread nD τ).loc main_arg0)) (t : Fin cfg0.N) (p : Fin 1000) (q : Fin 128)
    (n : Fin 10000) (hn : n.val = win0_9.index t (0 : Fin 2) * 1000 + p.val) :
    ((cfg0.win 0).blk t).view.read (Elt Ideal) A (ix2 p q) = A (ix2 n q) := by
  obtain ⟨e0, e1, -⟩ := idx_facts t
  rw [View.read_apply]
  refine congrArg A (funext fun a => Fin.ext ?_)
  match a with
  | ⟨0, _⟩ => show win0_0.index t (0 : Fin 2) * 1000 + 1 * p.val = n.val; omega
  | ⟨1, _⟩ => show win0_0.index t (1 : Fin 2) * 128 + 1 * q.val = q.val; omega

theorem read_rows1 (c : Dev nD) (A : Buf (Elt Ideal) ((c : Thread nD τ).loc main_v24)) (t : Fin cfg0.N) (p : Fin 1000) (q : Fin 128)
    (n : Fin 10000) (hn : n.val = win0_9.index t (0 : Fin 2) * 1000 + p.val) :
    ((cfg0.win 1).blk t).view.read (Elt Ideal) A (ix2 p q) = A (ix2 n q) := by
  obtain ⟨-, -, e0, e1, -⟩ := idx_facts t
  rw [View.read_apply]
  refine congrArg A (funext fun a => Fin.ext ?_)
  match a with
  | ⟨0, _⟩ => show win0_1.index t (0 : Fin 2) * 1000 + 1 * p.val = n.val; omega
  | ⟨1, _⟩ => show win0_1.index t (1 : Fin 2) * 128 + 1 * q.val = q.val; omega

theorem read_rows2 (c : Dev nD) (A : Buf (Elt Ideal) ((c : Thread nD τ).loc main_v41)) (t : Fin cfg0.N) (p : Fin 1000) (q : Fin 128)
    (n : Fin 10000) (hn : n.val = win0_9.index t (0 : Fin 2) * 1000 + p.val) :
    ((cfg0.win 2).blk t).view.read (Elt Ideal) A (ix2 p q) = A (ix2 n q) := by
  obtain ⟨-, -, -, -, e0, e1, -⟩ := idx_facts t
  rw [View.read_apply]
  refine congrArg A (funext fun a => Fin.ext ?_)
  match a with
  | ⟨0, _⟩ => show win0_2.index t (0 : Fin 2) * 1000 + 1 * p.val = n.val; omega
  | ⟨1, _⟩ => show win0_2.index t (1 : Fin 2) * 128 + 1 * q.val = q.val; omega

theorem read_sq3 (c : Dev nD) (A : Buf (Elt Ideal) ((c : Thread nD τ).loc main_v43)) (t : Fin cfg0.N) (c' k : Fin 128) :
    ((cfg0.win 3).blk t).view.read (Elt Ideal) A (ix2 c' k) = A (ix2 c' k) := by
  obtain ⟨-, -, -, -, -, -, e0, e1, -⟩ := idx_facts t
  rw [View.read_apply]
  refine congrArg A (funext fun a => Fin.ext ?_)
  match a with
  | ⟨0, _⟩ => show win0_3.index t (0 : Fin 2) * 128 + 1 * c'.val = c'.val; omega
  | ⟨1, _⟩ => show win0_3.index t (1 : Fin 2) * 128 + 1 * k.val = k.val; omega

theorem read_sq4 (c : Dev nD) (A : Buf (Elt Ideal) ((c : Thread nD τ).loc main_v44)) (t : Fin cfg0.N) (c' k : Fin 128) :
    ((cfg0.win 4).blk t).view.read (Elt Ideal) A (ix2 c' k) = A (ix2 c' k) := by
  obtain ⟨-, -, -, -, -, -, -, -, e0, e1, -⟩ := idx_facts t
  rw [View.read_apply]
  refine congrArg A (funext fun a => Fin.ext ?_)
  match a with
  | ⟨0, _⟩ => show win0_4.index t (0 : Fin 2) * 128 + 1 * c'.val = c'.val; omega
  | ⟨1, _⟩ => show win0_4.index t (1 : Fin 2) * 128 + 1 * k.val = k.val; omega

theorem read_sq5 (c : Dev nD) (A : Buf (Elt Ideal) ((c : Thread nD τ).loc main_v45)) (t : Fin cfg0.N) (c' k : Fin 128) :
    ((cfg0.win 5).blk t).view.read (Elt Ideal) A (ix2 c' k) = A (ix2 c' k) := by
  obtain ⟨-, -, -, -, -, -, -, -, -, -, e0, e1, -⟩ := idx_facts t
  rw [View.read_apply]
  refine congrArg A (funext fun a => Fin.ext ?_)
  match a with
  | ⟨0, _⟩ => show win0_5.index t (0 : Fin 2) * 128 + 1 * c'.val = c'.val; omega
  | ⟨1, _⟩ => show win0_5.index t (1 : Fin 2) * 128 + 1 * k.val = k.val; omega

theorem read_row6 (c : Dev nD) (A : Buf (Elt Ideal) ((c : Thread nD τ).loc main_v46)) (t : Fin cfg0.N) (k : Fin 128) :
    ((cfg0.win 6).blk t).view.read (Elt Ideal) A (ix2 (0 : Fin 1) k) = A (ix2 (0 : Fin 1) k) := by
  obtain ⟨-, -, -, -, -, -, -, -, -, -, -, -, e0, e1, -⟩ := idx_facts t
  rw [View.read_apply]
  refine congrArg A (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

theorem read_row7 (c : Dev nD) (A : Buf (Elt Ideal) ((c : Thread nD τ).loc main_v47)) (t : Fin cfg0.N) (k : Fin 128) :
    ((cfg0.win 7).blk t).view.read (Elt Ideal) A (ix2 (0 : Fin 1) k) = A (ix2 (0 : Fin 1) k) := by
  obtain ⟨-, -, -, -, -, -, -, -, -, -, -, -, -, -, e0, e1, -⟩ := idx_facts t
  rw [View.read_apply]
  refine congrArg A (funext fun a => Fin.ext ?_)
  match a with
  | ⟨0, _⟩ => show win0_7.index t (0 : Fin 2) * 1 + 1 * 0 = 0; omega
  | ⟨1, _⟩ => show win0_7.index t (1 : Fin 2) * 128 + 1 * k.val = k.val; omega

theorem read_row8 (c : Dev nD) (A : Buf (Elt Ideal) ((c : Thread nD τ).loc main_v48)) (t : Fin cfg0.N) (k : Fin 128) :
    ((cfg0.win 8).blk t).view.read (Elt Ideal) A (ix2 (0 : Fin 1) k) = A (ix2 (0 : Fin 1) k) := by
  obtain ⟨-, -, -, -, -, -, -, -, -, -, -, -, -, -, -, -, e0, e1, -⟩ := idx_facts t
  rw [View.read_apply]
  refine congrArg A (funext fun a => Fin.ext ?_)
  match a with
  | ⟨0, _⟩ => show win0_8.index t (0 : Fin 2) * 1 + 1 * 0 = 0; omega
  | ⟨1, _⟩ => show win0_8.index t (1 : Fin 2) * 128 + 1 * k.val = k.val; omega

theorem rows0_apply (c : Dev nD) (t : Fin cfg0.N) (p : Fin 1000) (q : Fin 128) (n : Fin 10000)
    (hn : n.val = win0_9.index t (0 : Fin 2) * 1000 + p.val) :
    (iblk m c 0 t : Vec Ideal S1000x128 .f32) (ix2 p q) = ((m ((c : Thread nD τ).loc main_arg0)) : S10000x128.Idx → EReal) (ix2 n q) :=
  (read_rows0 c (V m c (Pipeline.arrRef spec0 0)) t p q n hn).trans (congrFun (V_main_arg0 m c) (ix2 n q))

theorem rows1_apply (c : Dev nD) (t : Fin cfg0.N) (p : Fin 1000) (q : Fin 128) (n : Fin 10000)
    (hn : n.val = win0_9.index t (0 : Fin 2) * 1000 + p.val) :
    (iblk m c 1 t : Vec Ideal S1000x128 .f32) (ix2 p q) = (V m c main_v24 : S10000x128.Idx → EReal) (ix2 n q) :=
  read_rows1 c (V m c (Pipeline.arrRef spec0 1)) t p q n hn

theorem rows2_apply (c : Dev nD) (t : Fin cfg0.N) (p : Fin 1000) (q : Fin 128) (n : Fin 10000)
    (hn : n.val = win0_9.index t (0 : Fin 2) * 1000 + p.val) :
    (iblk m c 2 t : Vec Ideal S1000x128 .f32) (ix2 p q) = (V m c main_v41 : S10000x128.Idx → EReal) (ix2 n q) :=
  read_rows2 c (V m c (Pipeline.arrRef spec0 2)) t p q n hn

theorem sq3_apply (c : Dev nD) (t : Fin cfg0.N) (c' k : Fin 128) :
    (iblk m c 3 t : Vec Ideal S128x128 .f32) (ix2 c' k) = ((m ((c : Thread nD τ).loc main_arg2)) : S128x384.Idx → EReal) (ix2 k (⟨c'.val, by omega⟩ : Fin 384)) :=
  (read_sq3 c (V m c (Pipeline.arrRef spec0 3)) t c' k).trans (band0_apply m c c' k)

theorem sq4_apply (c : Dev nD) (t : Fin cfg0.N) (c' k : Fin 128) :
    (iblk m c 4 t : Vec Ideal S128x128 .f32) (ix2 c' k) = ((m ((c : Thread nD τ).loc main_arg2)) : S128x384.Idx → EReal) (ix2 k (⟨128 + c'.val, by omega⟩ : Fin 384)) :=
  (read_sq4 c (V m c (Pipeline.arrRef spec0 4)) t c' k).trans (band1_apply m c c' k)

theorem sq5_apply (c : Dev nD) (t : Fin cfg0.N) (c' k : Fin 128) :
    (iblk m c 5 t : Vec Ideal S128x128 .f32) (ix2 c' k) = ((m ((c : Thread nD τ).loc main_arg2)) : S128x384.Idx → EReal) (ix2 k (⟨256 + c'.val, by omega⟩ : Fin 384)) :=
  (read_sq5 c (V m c (Pipeline.arrRef spec0 5)) t c' k).trans (band2_apply m c c' k)

theorem row6_apply (c : Dev nD) (t : Fin cfg0.N) (k : Fin 128) :
    (iblk m c 6 t : Vec Ideal S1x128 .f32) (ix2 (0 : Fin 1) k) = ((m ((c : Thread nD τ).loc main_arg3)) : S128.Idx → EReal) (ix1 k) :=
  (read_row6 c (V m c (Pipeline.arrRef spec0 6)) t k).trans (bias_apply m c k)

theorem row7_apply (c : Dev nD) (t : Fin cfg0.N) (k : Fin 128) :
    (iblk m c 7 t : Vec Ideal S1x128 .f32) (ix2 (0 : Fin 1) k) = ((m ((c : Thread nD τ).loc main_arg4)) : S128.Idx → EReal) (ix1 k) :=
  (read_row7 c (V m c (Pipeline.arrRef spec0 7)) t k).trans (gain_apply m c k)

theorem row8_apply (c : Dev nD) (t : Fin cfg0.N) (k : Fin 128) :
    (iblk m c 8 t : Vec Ideal S1x128 .f32) (ix2 (0 : Fin 1) k) = ((m ((c : Thread nD τ).loc main_arg5)) : S128.Idx → EReal) (ix1 k) :=
  (read_row8 c (V m c (Pipeline.arrRef spec0 8)) t k).trans (offset_apply m c k)

/-! ## One function of the arrays -/

/-- The dense layer and the row normalisation depend on their rows only entry by entry. -/
theorem dense3_congr {a0 a1 a2 w0 w1 w2 a0' a1' a2' w0' w1' w2' : Fin 128 → EReal} {b b' : EReal}
    (h0 : ∀ c, a0 c = a0' c) (h1 : ∀ c, a1 c = a1' c) (h2 : ∀ c, a2 c = a2' c)
    (k0 : ∀ c, w0 c = w0' c) (k1 : ∀ c, w1 c = w1' c) (k2 : ∀ c, w2 c = w2' c) (hb : b = b') :
    dense3 a0 a1 a2 w0 w1 w2 b = dense3 a0' a1' a2' w0' w1' w2' b' := by
  rw [funext h0, funext h1, funext h2, funext k0, funext k1, funext k2, hb]

theorem rowLN_congr {x g b x' g' b' : Fin 128 → EReal} (hx : ∀ k, x k = x' k) (hg : ∀ k, g k = g' k) (hb : ∀ k, b k = b' k)
    (j : Fin 128) : rowLN x g b j = rowLN x' g' b' j := by
  rw [funext hx, funext hg, funext hb]

/-- The result array as one function of the arrays the region finds: the layer applied to the argument's feature
    matrix, the two hop matrices the host computed, and the weight, bias, gain and offset arguments. -/
def result (c : Dev nD) : S10000x128.Idx → EReal :=
  layerArr (m ((c : Thread nD τ).loc main_arg0)) (V m c main_v24) (V m c main_v41) (m ((c : Thread nD τ).loc main_arg2)) (m ((c : Thread nD τ).loc main_arg3))
    (m ((c : Thread nD τ).loc main_arg4)) (m ((c : Thread nD τ).loc main_arg5))

/-- What the body stores at a point, entry by entry, is the layer at the entry's place in the whole array. -/
theorem stored_eq (c : Dev nD) (t : Fin cfg0.N) (y : S1000x128.Idx) :
    k0_pay1 (k0_pay2 (iblk m c 0 t) (iblk m c 1 t) (iblk m c 2 t) (iblk m c 3 t) (iblk m c 4 t) (iblk m c 5 t) (iblk m c 6 t))
        (k0_pay3 (iblk m c 0 t) (iblk m c 1 t) (iblk m c 2 t) (iblk m c 3 t) (iblk m c 4 t) (iblk m c 5 t) (iblk m c 6 t))
        (Scalar.ofBits .f32 0x3727C5AC#32) (iblk m c 7 t) (iblk m c 8 t) y
      = result m c (((cfg0.win 9).blk t).view.emb y) := by
  obtain ⟨p, q, rfl⟩ : ∃ (p : Fin 1000) (q : Fin 128), y = ix2 p q := ⟨y 0, y 1, eq_ix2 y⟩
  obtain ⟨-, -, -, -, -, -, -, -, -, -, -, -, -, -, -, -, -, -, h9, h91⟩ := idx_facts t
  have hp : p.val < 1000 := p.isLt
  let n : Fin 10000 := ⟨win0_9.index t (0 : Fin 2) * 1000 + p.val, by omega⟩
  have hemb : ((cfg0.win 9).blk t).view.emb (ix2 p q) = (ix2 n q : S10000x128.Idx) := funext fun a => Fin.ext (by
    match a with
    | ⟨0, _⟩ => show win0_9.index t (0 : Fin 2) * 1000 + 1 * p.val = win0_9.index t (0 : Fin 2) * 1000 + p.val; omega
    | ⟨1, _⟩ => show win0_9.index t (1 : Fin 2) * 128 + 1 * q.val = q.val; omega)
  rw [hemb]
  unfold result
  rw [layerArr_apply]
  unfold layer
  refine (stored_apply (iblk m c 0 t) (iblk m c 1 t) (iblk m c 2 t) (iblk m c 3 t) (iblk m c 4 t) (iblk m c 5 t) (iblk m c 6 t)
    (iblk m c 7 t) (iblk m c 8 t) p q).trans ?_
  refine rowLN_congr (fun k => dense3_congr (fun c' => rows0_apply m c t p c' n rfl) (fun c' => rows1_apply m c t p c' n rfl)
    (fun c' => rows2_apply m c t p c' n rfl) (fun c' => sq3_apply m c t c' k) (fun c' => sq4_apply m c t c' k)
    (fun c' => sq5_apply m c t c' k) (row6_apply m c t k)) (fun k => row7_apply m c t k) (fun k => row8_apply m c t k) q

/-- What point `t` writes back is block `t` of `result`. -/
theorem flushed_eq (c : Dev nD) (t : Fin cfg0.N) :
    (dats m 0 c).flushed 9 t = ((cfg0.win 9).blk t).view.read (Elt Ideal) (result m c) := by
  rw [flushed9 m c t]
  unfold out0_9
  rw [View.canon_unit_zero hz]
  simp only [View.ld_unit_zero (S := S1000x128) hz, View.ld_unit_zero (S := S128x128) hz, View.ld_unit_zero (S := S1x128) hz]
  funext y
  exact stored_eq m c t y

/-- An index of the array is in point `t`'s block iff each coordinate is in the block's range on its axis. -/
theorem mem_blk (t : Fin cfg0.N) (i : S10000x128.Idx) :
    i ∈ ((cfg0.win 9).blk t).view.set ↔ ∀ a : Fin 2, win0_9.index t a * S1000x128.size a ≤ (i a).val
      ∧ (i a).val < win0_9.index t a * S1000x128.size a + S1000x128.size a := by
  show i ∈ ((View.whole main_v49).slice (win0_9.rect t)).set ↔ _
  rw [View.set_slice_whole, Rect.mem_set_unit]
  exact Iff.rfl

/-- The ten blocks cover the array: row `r` is in the block of the point whose row-block number is `r / 1000`. -/
theorem cover (i : S10000x128.Idx) :
    ∃ t : Fin cfg0.N, (cfg0.win 9).flush t = true ∧ i ∈ ((cfg0.win 9).blk t).view.set := by
  have hi0 : (i 0).val < 10000 := (i 0).isLt
  have hi1 : (i 1).val < 128 := (i 1).isLt
  obtain ⟨t, ht⟩ := idx_onto ⟨(i 0).val / 1000, by omega⟩
  have q0 : win0_9.index t (0 : Fin 2) = (i 0).val / 1000 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 1000 ≤ (i 0).val ∧ (i 0).val < win0_9.index t (0 : Fin 2) * 1000 + 1000
    omega
  | ⟨1, _⟩ =>
    show win0_9.index t (1 : Fin 2) * 128 ≤ (i 1).val ∧ (i 1).val < win0_9.index t (1 : Fin 2) * 128 + 128
    omega

/-- The result array after the run is `result`. -/
theorem final (c : Dev nD) : (dats m 0 c).arrAt 9 cfg0.N = result m c :=
  (dats m 0 c).arrAt_eq_of_cover 9 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.LibConcatThree.lean ====
/-
  Three equal pieces laid side by side.

  Three `[m, n]` arrays concatenated along axis 1 into an `[m, N]` array read, at `(p, j)`, the first piece at `(p, j)` when
  `j` is one of its `n` columns, the second at `(p, j - n)` when `j` is one of the next `n`, and the third at
  `(p, j - 2n)` otherwise: the piece whose span of columns holds `j`, at `j` less the columns before that span.
-/
import Idealize.ShloMosaic.Lib.Pipeline.Value
import Idealize.ShloMosaic.Lib.ValueIdx

namespace Cert.LibConcatThree

open Idealize.ShloMosaic Idealize.ShloMosaic.ValueIdx

variable {α : Type}

/-- Off the concatenated axis the piece's index has the whole array's coordinates. -/
private theorem off_axis {m n N : ℕ} (p : Fin m) (q : Fin n) (j : Fin N)
    (hr : (⟨2, ![m, n]⟩ : Shape).rank = (⟨2, ![m, N]⟩ : Shape).rank) :
    ∀ b : Fin (⟨2, ![m, n]⟩ : Shape).rank, b.cast hr ≠ (1 : Fin 2) → ((ix2 p q : (⟨2, ![m, n]⟩ : Shape).Idx) b).val = ((ix2 p j : (⟨2, ![m, N]⟩ : Shape).Idx) (b.cast hr)).val := by
  intro b hb
  match b with
  | ⟨0, _⟩ => rfl
  | ⟨1, _⟩ => exact absurd rfl hb

/-- A column of the first piece. -/
theorem concat3_cols_first {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = q.val) :
    concatenate ⟨2, ![m, N]⟩ (1 : Fin 2) [⟨⟨2, ![m, n]⟩, W0⟩, ⟨⟨2, ![m, n]⟩, W1⟩, ⟨⟨2, ![m, n]⟩, W2⟩] hc (ix2 p j) = W0 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 0 (by simp) ⟨2, ![m, n]⟩ W0 rfl rfl 0 (by simp) (ix2 p q)
    (off_axis p q j rfl) (by show 0 + q.val = j.val; omega)

/-- A column of the second piece. -/
theorem concat3_cols_second {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W1 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 1 (by simp) ⟨2, ![m, n]⟩ W1 rfl rfl n (by simp) (ix2 p q)
    (off_axis p q j rfl) (by show n + q.val = j.val; omega)

/-- A column of the third piece. -/
theorem concat3_cols_third {m n N : ℕ} (W0 W1 W2 : (⟨2, ![m, n]⟩ : Shape).Idx → α)
    (hc : Shape.Concatenates [(⟨2, ![m, n]⟩ : Shape), ⟨2, ![m, n]⟩, ⟨2, ![m, n]⟩] ⟨2, ![m, N]⟩ (1 : Fin 2))
    (p : Fin m) (q : Fin n) (j : Fin N) (hj : j.val = n + n + q.val) :
    concatenate ⟨2, ![m, N]⟩ (1 : Fin 2) [⟨⟨2, ![m, n]⟩, W0⟩, ⟨⟨2, ![m, n]⟩, W1⟩, ⟨⟨2, ![m, n]⟩, W2⟩] hc (ix2 p j) = W2 (ix2 p q) :=
  concatenate_apply_piece (t := ⟨2, ![m, N]⟩) (1 : Fin 2) [⟨⟨2, ![m, n]⟩, W0⟩, ⟨⟨2, ![m, n]⟩, W1⟩, ⟨⟨2, ![m, n]⟩, W2⟩] hc (ix2 p j) 2 (by simp) ⟨2, ![m, n]⟩ W2 rfl rfl (n + n) (by simp) (ix2 p q)
    (off_axis p q j rfl) (by show n + n + q.val = j.val; omega)

end Cert.LibConcatThree
-- ==== Proof.RefLayer.lean ====
/-
  The reference's result, entry by entry, is the layer of `RowNorm`.

  The reference lays the three hop feature matrices side by side into one 10000 × 384 matrix, multiplies it by the
  transposed weight matrix in one product over 384 input columns, adds the bias, and normalises every row over its
  128 columns. Entry (n, k) of the one product is a sum over 384 indices; cut into its three bands of 128 it is the
  sum of the three hop matrices' rows `n` against the three bands of weight row `k` (`pre_at`). From there on each
  operation is read at an index by the generated lemmas: the row mean (`mean_at`), the centred entry
  (`centred_at`, twice: the reference subtracts the mean once for the variance and once for the result), the
  variance (`var_at`) and the clipped affine result (`result_at`).

  The two hop matrices that the host computes before the layer stay the opaque terms `val_main_v24`, `val_main_v41`.
-/
import proofs.«118158_j32899449488056_2_alg».proof.Proof.Gen.ReferenceIdeal.Read
import proofs.«118158_j32899449488056_2_alg».proof.Proof.RowNorm
import proofs.«118158_j32899449488056_2_alg».proof.Proof.LibConcatThree

noncomputable section

open scoped BigOperators

namespace Cert.ReferenceIdeal.Layer

open Cert.ReferenceIdeal Cert.ReferenceIdeal.Gen Cert.ReferenceIdeal.Read Idealize.ShloMosaic Idealize.ShloMosaic.ValueIdx
open Cert.RowNorm Cert.LibConcatThree

variable (x0 : (⟨S10000x128, .f32⟩ : BufTy).Contents (Elt Ideal)) (x1 : (⟨S640000, .f32⟩ : BufTy).Contents (Elt Ideal))
  (x2 : (⟨S128x384, .f32⟩ : BufTy).Contents (Elt Ideal)) (x3 x4 x5 : (⟨S128, .f32⟩ : BufTy).Contents (Elt Ideal))
  (x6 x7 : (⟨S640000, .i32⟩ : BufTy).Contents (Elt Ideal))

/-- The pre-activations of row `n`: the dense layer applied to the argument's row and to the two computed hop rows. -/
def pre (n : Fin 10000) (k : Fin 128) : EReal :=
  dense3 (fun c => x0 (ix2 n c)) (fun c => val_main_v24 (F := Ideal) x0 x1 x6 x7 (ix2 n c))
    (fun c => val_main_v41 (F := Ideal) x0 x1 x6 x7 (ix2 n c))
    (fun c => x2 (ix2 k (⟨c.val, by omega⟩ : Fin 384))) (fun c => x2 (ix2 k (⟨128 + c.val, by omega⟩ : Fin 384)))
    (fun c => x2 (ix2 k (⟨256 + c.val, by omega⟩ : Fin 384))) (x3 (ix1 k))

/-- A term of the one product over 384 columns: the side-by-side matrix at (n, kk) times the weight at (k, kk). -/
theorem term_at (n : Fin 10000) (k : Fin 128) (kk : Fin 384) (h : (⟨2, ![10000, 128]⟩ : Shape).Idx → EReal) (c : Fin 128)
    (hcat : val_main_v42 (F := Ideal) x0 x1 x6 x7 (ix2 n kk) = h (ix2 n c)) :
    val_main_v42 (F := Ideal) x0 x1 x6 x7 (lidx_main_v44 (ix2 n k) kk) * val_main_v43 (F := Ideal) x2 (ridx_main_v44 (ix2 n k) kk)
      = h (ix2 n c) * x2 (ix2 k kk) := by
  rw [val_main_v43_apply]
  refine congrArg₂ (· * ·) ((congrArg (val_main_v42 (F := Ideal) x0 x1 x6 x7) (funext fun a => Fin.ext (by
    match a with
    | ⟨0, _⟩ => rfl
    | ⟨1, _⟩ => rfl))).trans hcat) (congrArg x2 (funext fun a => Fin.ext (by
    match a with
    | ⟨0, _⟩ => rfl
    | ⟨1, _⟩ => rfl)))

/-- The product plus the bias at (n, k): the three bands of the sum over 384 columns are the three hop rows against
    the three bands of weight row `k`. -/
theorem pre_at (n : Fin 10000) (k : Fin 128) :
    val_main_v47 (F := Ideal) x0 x1 x2 x3 x6 x7 (ix2 n k) = pre x0 x1 x2 x3 x6 x7 n k := by
  rw [val_main_v47_apply, val_main_v44_apply, val_main_v46_apply, val_main_v45_apply, sum_three_bands]
  unfold pre dense3
  refine congrArg₂ (· + ·) (congrArg₂ (· + ·) (congrArg₂ (· + ·) ?_ ?_) ?_) ?_
  · refine Finset.sum_congr rfl fun c _ => term_at x0 x1 x2 x6 x7 n k _ x0 c ?_
    exact concat3_cols_first x0 (val_main_v24 (F := Ideal) x0 x1 x6 x7) (val_main_v41 (F := Ideal) x0 x1 x6 x7)
      concatenates_S10000x128_S10000x128_S10000x128_S10000x384_d1 n c _ rfl
  · refine Finset.sum_congr rfl fun c _ => term_at x0 x1 x2 x6 x7 n k _ (val_main_v24 (F := Ideal) x0 x1 x6 x7) c ?_
    exact concat3_cols_second x0 (val_main_v24 (F := Ideal) x0 x1 x6 x7) (val_main_v41 (F := Ideal) x0 x1 x6 x7)
      concatenates_S10000x128_S10000x128_S10000x128_S10000x384_d1 n c _ rfl
  · refine Finset.sum_congr rfl fun c _ => term_at x0 x1 x2 x6 x7 n k _ (val_main_v41 (F := Ideal) x0 x1 x6 x7) c ?_
    exact concat3_cols_third x0 (val_main_v24 (F := Ideal) x0 x1 x6 x7) (val_main_v41 (F := Ideal) x0 x1 x6 x7)
      concatenates_S10000x128_S10000x128_S10000x128_S10000x384_d1 n c _ rfl
  · exact congrArg x3 (funext fun a => Fin.ext (by
      match a with
      | ⟨0, _⟩ => rfl))

/-- The row means, as the one-column array the reference keeps them in. -/
theorem mean_at (n : Fin 10000) (u : Fin 1) :
    val_main_v51 (F := Ideal) x0 x1 x2 x3 x6 x7 (ix2 n u) = mean (pre x0 x1 x2 x3 x6 x7 n) := by
  rw [val_main_v51_apply, val_main_v49_apply, val_main_v48_apply, val_main_v50_apply, val_main_cst_9_apply,
    val_main_cst_8_apply]
  simp only [Ideal.hostDivf_def, Ideal.ofBits_def, Ideal.ofBits_zero_f32, zero_add]
  unfold mean
  refine congrArg (fun s => Ideal.div s len) (Finset.sum_congr rfl fun k _ => ?_)
  exact (congrArg (val_main_v47 (F := Ideal) x0 x1 x2 x3 x6 x7) (funext fun a => Fin.ext (by
    match a with
    | ⟨0, _⟩ => rfl
    | ⟨1, _⟩ => rfl))).trans (pre_at x0 x1 x2 x3 x6 x7 n k)

/-- The pre-activation less its row mean, as the reference forms it for the variance. -/
theorem centred_at (n : Fin 10000) (k : Fin 128) :
    val_main_v53 (F := Ideal) x0 x1 x2 x3 x6 x7 (ix2 n k) = centred (pre x0 x1 x2 x3 x6 x7 n) k := by
  rw [val_main_v53_apply, val_main_v52_apply, pre_at]
  refine congrArg (fun s => pre x0 x1 x2 x3 x6 x7 n k - s) ?_
  exact (congrArg (val_main_v51 (F := Ideal) x0 x1 x2 x3 x6 x7) (funext fun a => Fin.ext (by
    match a with
    | ⟨0, _⟩ => rfl
    | ⟨1, _⟩ => rfl))).trans (mean_at x0 x1 x2 x3 x6 x7 n (0 : Fin 1))

/-- The same difference, as the reference forms it again for the result. -/
theorem centred_at' (n : Fin 10000) (k : Fin 128) :
    val_main_v60 (F := Ideal) x0 x1 x2 x3 x6 x7 (ix2 n k) = centred (pre x0 x1 x2 x3 x6 x7 n) k := by
  rw [val_main_v60_apply, val_main_v59_apply, pre_at]
  refine congrArg (fun s => pre x0 x1 x2 x3 x6 x7 n k - s) ?_
  exact (congrArg (val_main_v51 (F := Ideal) x0 x1 x2 x3 x6 x7) (funext fun a => Fin.ext (by
    match a with
    | ⟨0, _⟩ => rfl
    | ⟨1, _⟩ => rfl))).trans (mean_at x0 x1 x2 x3 x6 x7 n (0 : Fin 1))

/-- The row variances, as a one-column array. -/
theorem var_at (n : Fin 10000) (u : Fin 1) :
    val_main_v58 (F := Ideal) x0 x1 x2 x3 x6 x7 (ix2 n u) = variance (pre x0 x1 x2 x3 x6 x7 n) := by
  rw [val_main_v58_apply, val_main_v56_apply, val_main_v55_apply, val_main_v57_apply, val_main_cst_11_apply,
    val_main_cst_10_apply]
  simp only [Ideal.hostDivf_def, Ideal.ofBits_def, Ideal.ofBits_zero_f32, zero_add]
  unfold variance mean
  refine congrArg (fun s => Ideal.div s len) (Finset.sum_congr rfl fun k _ => ?_)
  rw [val_main_v54_apply]
  have e : val_main_v53 (F := Ideal) x0 x1 x2 x3 x6 x7 (idx_main_v55 (idx_main_v56 (ix2 n u)) k)
      = centred (pre x0 x1 x2 x3 x6 x7 n) k :=
    (congrArg (val_main_v53 (F := Ideal) x0 x1 x2 x3 x6 x7) (funext fun a => Fin.ext (by
      match a with
      | ⟨0, _⟩ => rfl
      | ⟨1, _⟩ => rfl))).trans (centred_at x0 x1 x2 x3 x6 x7 n k)
  rw [e]
  rfl

/-- The reference's result at (n, j). -/
theorem result_at (n : Fin 10000) (j : Fin 128) :
    val_main_v72 (F := Ideal) x0 x1 x2 x3 x4 x5 x6 x7 (ix2 n j)
      = rowLN (pre x0 x1 x2 x3 x6 x7 n) (fun k => x4 (ix1 k)) (fun k => x5 (ix1 k)) j := by
  rw [val_main_v72_apply, val_main_v71_apply, val_main_v68_apply, val_main_v65_apply, centred_at', val_main_v64_apply,
    val_main_v63_apply, val_main_v62_apply, val_main_v61_apply, val_main_cst_12_apply, val_main_v67_apply, val_main_v66_apply,
    val_main_v70_apply, val_main_v69_apply, val_main_call1_v0_apply, val_main_call1_cst_apply]
  have ev : val_main_v58 (F := Ideal) x0 x1 x2 x3 x6 x7 (idx_main_v64 (ix2 n j)) = variance (pre x0 x1 x2 x3 x6 x7 n) :=
    (congrArg (val_main_v58 (F := Ideal) x0 x1 x2 x3 x6 x7) (funext fun a => Fin.ext (by
      match a with
      | ⟨0, _⟩ => rfl
      | ⟨1, _⟩ => rfl))).trans (var_at x0 x1 x2 x3 x6 x7 n (0 : Fin 1))
  have eg : x4 (idx_main_v66 (idx_main_v67 (ix2 n j))) = x4 (ix1 j) := congrArg x4 (funext fun a => Fin.ext (by
    match a with
    | ⟨0, _⟩ => rfl))
  have eb : x5 (idx_main_v69 (idx_main_v70 (ix2 n j))) = x5 (ix1 j) := congrArg x5 (funext fun a => Fin.ext (by
    match a with
    | ⟨0, _⟩ => rfl))
  rw [ev, eg, eb]
  rfl

/-- The reference's result array is the layer of the argument, the two computed hop matrices, and the parameters. -/
theorem result_eq :
    val_main_v72 (F := Ideal) x0 x1 x2 x3 x4 x5 x6 x7
      = layerArr x0 (val_main_v24 (F := Ideal) x0 x1 x6 x7) (val_main_v41 (F := Ideal) x0 x1 x6 x7) x2 x3 x4 x5 := by
  funext i
  obtain ⟨n, j, rfl⟩ : ∃ (n : Fin 10000) (j : Fin 128), i = ix2 n j := ⟨i 0, i 1, eq_ix2 i⟩
  rw [result_at, layerArr_apply]
  rfl

end Cert.ReferenceIdeal.Layer

end
-- ==== Proof.HostHops.lean ====
/-
  The two propagated hop matrices, as the region finds them.

  The kernel's program and the reference compute the two hop matrices by the same host operations in the same order,
  so the arrays the region finds are the reference's own terms for them, applied to the kernel's arguments
  (`hop1_eq`, `hop2_eq`). The comparison is made a few operations at a time, each group folded into the reference's
  name for its value as soon as it is recognised (`fold_…`), so that no large term is ever compared with another:
  the normaliser column, the gather indices and the edge-weight matrix, then one propagation step, then the second.
-/
import proofs.«118158_j32899449488056_2_alg».proof.Proof.HostEarly
import proofs.«118158_j32899449488056_2_alg».proof.Proof.Gen.ReferenceIdeal.Read
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v3 val_main_v4 val_main_v7 val_main_v15 val_main_v18 val_main_v19 val_main_v24 val_main_v36 val_main_v41)

variable (m : (ℓ : Loc nD τ sig) → Buf (Elt Ideal) ℓ)

/-! ## Groups of operations, recognised -/

section Folds

variable (x0 : (⟨S10000x128, .f32⟩ : BufTy).Contents (Elt Ideal)) (x1 : (⟨S640000, .f32⟩ : BufTy).Contents (Elt Ideal))
  (x6 x7 : (⟨S640000, .i32⟩ : BufTy).Contents (Elt Ideal))

/-- The normaliser: the clipped degree to the power −1/2, as a column. -/
theorem fold_norm :
    broadcastInDim S10000x1 ![0] bcast_S10000_S10000x1_0
        (Host.powf (val_main_v4 (F := Ideal) x7 : FVec Ideal S10000 .f32) (broadcastInDim S10000 ![] bcast_S_S10000 (constant (F := Ideal) S_ .f32 0xBF000000#32)))
      = val_main_v7 (F := Ideal) x7 := rfl

/-- The gather indices: a negative source index wrapped round by the number of nodes, as a column. -/
theorem fold_src :
    broadcastInDim S640000x1 ![0] bcast_S640000_S640000x1_0
        (select (cmpi .slt x6 (broadcastInDim S640000 ![] bcast_S_S640000 (constantI S_ 32 0#32)))
          (addi x6 (broadcastInDim S640000 ![] bcast_S_S640000 (constantI S_ 32 10000#32))) x6)
      = val_main_v15 (F := Ideal) x6 := rfl

/-- The edge weights spread along the feature axis. -/
theorem fold_weight :
    broadcastInDim S640000x128 ![0, 1] bcast_S640000x1_S640000x128_0_1 (broadcastInDim S640000x1 ![0] bcast_S640000_S640000x1_0 x1)
      = val_main_v18 (F := Ideal) x1 := rfl

/-- One propagation step from the argument's features: normalise, gather by source, weight. -/
theorem fold_msg1 :
    mulf (F := Ideal) (φ := .f32) (Host.gather gather_S10000x128_S640000x1_S640000x128_1_0_n_n_0_1_1128
        (mulf (F := Ideal) (φ := .f32) x0 (broadcastInDim (α := Ideal .f32) S10000x128 ![0, 1] bcast_S10000x1_S10000x128_0_1 (val_main_v7 (F := Ideal) x7 : FVec Ideal S10000x1 .f32)))
        (val_main_v15 (F := Ideal) x6 : IVec S640000x1 32)) (val_main_v18 (F := Ideal) x1 : FVec Ideal S640000x128 .f32)
      = val_main_v19 (F := Ideal) x0 x1 x6 x7 := rfl

/-- … summed by destination and normalised again: the first hop matrix. -/
theorem fold_hop1 :
    mulf (F := Ideal) (φ := .f32) (Host.scatterAdd (F := Ideal) scatter_S10000x128_S640000x1_S640000x128_1_0_0_1
        (broadcastInDim S10000x128 ![] bcast_S_S10000x128 (constant (F := Ideal) S_ .f32 0x00000000#32))
        (broadcastInDim S640000x1 ![0] bcast_S640000_S640000x1_0 x7) (val_main_v19 (F := Ideal) x0 x1 x6 x7 : FVec Ideal S640000x128 .f32))
        (broadcastInDim (α := Ideal .f32) S10000x128 ![0, 1] bcast_S10000x1_S10000x128_0_1 (val_main_v7 (F := Ideal) x7 : FVec Ideal S10000x1 .f32))
      = val_main_v24 (F := Ideal) x0 x1 x6 x7 := rfl

/-- The same step from the first hop matrix. -/
theorem fold_msg2 :
    mulf (F := Ideal) (φ := .f32) (Host.gather gather_S10000x128_S640000x1_S640000x128_1_0_n_n_0_1_1128
        (mulf (F := Ideal) (φ := .f32) (val_main_v24 (F := Ideal) x0 x1 x6 x7 : FVec Ideal S10000x128 .f32)
          (broadcastInDim (α := Ideal .f32) S10000x128 ![0, 1] bcast_S10000x1_S10000x128_0_1 (val_main_v7 (F := Ideal) x7 : FVec Ideal S10000x1 .f32)))
        (val_main_v15 (F := Ideal) x6 : IVec S640000x1 32)) (val_main_v18 (F := Ideal) x1 : FVec Ideal S640000x128 .f32)
      = val_main_v36 (F := Ideal) x0 x1 x6 x7 := rfl

/-- … giving the second hop matrix. -/
theorem fold_hop2 :
    mulf (F := Ideal) (φ := .f32) (Host.scatterAdd (F := Ideal) scatter_S10000x128_S640000x1_S640000x128_1_0_0_1
        (broadcastInDim S10000x128 ![] bcast_S_S10000x128 (constant (F := Ideal) S_ .f32 0x00000000#32))
        (broadcastInDim S640000x1 ![0] bcast_S640000_S640000x1_0 x7) (val_main_v36 (F := Ideal) x0 x1 x6 x7 : FVec Ideal S640000x128 .f32))
        (broadcastInDim (α := Ideal .f32) S10000x128 ![0, 1] bcast_S10000x1_S10000x128_0_1 (val_main_v7 (F := Ideal) x7 : FVec Ideal S10000x1 .f32))
      = val_main_v41 (F := Ideal) x0 x1 x6 x7 := rfl

end Folds

/-! ## The two hop matrices -/

/-- The first propagated hop matrix, as the region finds it, is the reference's term for it. -/
theorem hop1_eq (c : Dev nD) :
    (V m c main_v24 : S10000x128.Idx → EReal)
      = val_main_v24 (F := Ideal) (m ((c : Thread nD τ).loc main_arg0)) (m ((c : Thread nD τ).loc main_arg1))
          (m ((c : Thread nD τ).loc main_arg6)) (m ((c : Thread nD τ).loc main_arg7)) := by
  rw [V_eq]
  simp only [hostOps0_2]
  after_results_simp
  rw [stage_deg, early_arg0, early_arg1, early_arg6, early_arg7]
  generalize m (c, Proc.devRef .tc main_arg0) = x0
  generalize m (c, Proc.devRef .tc main_arg1) = x1
  generalize m (c, Proc.devRef .tc main_arg6) = x6
  generalize m (c, Proc.devRef .tc main_arg7) = x7
  rw [fold_norm, fold_src, fold_weight, fold_msg1 x0 x1 x6 x7, fold_hop1 x0 x1 x6 x7]

/-- The second propagated hop matrix likewise. -/
theorem hop2_eq (c : Dev nD) :
    (V m c main_v41 : S10000x128.Idx → EReal)
      = val_main_v41 (F := Ideal) (m ((c : Thread nD τ).loc main_arg0)) (m ((c : Thread nD τ).loc main_arg1))
          (m ((c : Thread nD τ).loc main_arg6)) (m ((c : Thread nD τ).loc main_arg7)) := by
  rw [V_eq]
  simp only [hostOps0_2]
  after_results_simp
  rw [stage_deg, early_arg0, early_arg1, early_arg6, early_arg7]
  generalize m (c, Proc.devRef .tc main_arg0) = x0
  generalize m (c, Proc.devRef .tc main_arg1) = x1
  generalize m (c, Proc.devRef .tc main_arg6) = x6
  generalize m (c, Proc.devRef .tc main_arg7) = x7
  rw [fold_norm, fold_src, fold_weight, fold_msg1 x0 x1 x6 x7, fold_hop1 x0 x1 x6 x7, fold_msg2 x0 x1 x6 x7, fold_hop2 x0 x1 x6 x7]

end Cert.KernelIdeal.Host

end
-- ==== Proof.lean ====
/-
  A graph layer that propagates node features two hops, then applies a dense layer, a row normalisation and a
  clip at zero; the kernel against its plain reference, at the exact (extended-real) values.

  Both programs first compute, on the host and by the same operations, the two propagated hop matrices from the node
  features, the edge weights and the edge lists. They differ only in the dense layer that follows. The reference
  lays the three feature matrices side by side and multiplies the 10000 × 384 result by the transposed weight matrix in
  one product. The kernel never builds the wide matrix: for each block of 1000 rows it multiplies each of the three
  feature blocks by its own 128-row band of the transposed weights and adds the three products. Entry by entry the one
  sum over 384 columns is the sum of its three bands of 128; sums on the extended reals are commutative and
  associative without any finiteness, so the two pre-activations are equal for all inputs, and the normalisation,
  scaling, shift and clip that both programs then apply row by row are the same function of them.

  The three frames are the generated ones (the reference's is its generated run with the result dropped). The ideal
  pass rewrote nothing, so there is nothing to preserve. For the algebraic claim the kernel's result array is read off
  its generated blockwise run (`KernelArray`, over `BlockValue` and `BlockOps`), the host values the region finds off the
  host prefix (`HostEarly`, `HostHops`, `HostParams`), and the reference's result off its generated run and index lemmas (`RefLayer`); both are the
  one function `RowNorm.layerArr` of the same arrays.
-/
import proofs.«118158_j32899449488056_2_alg».proof.Defs
import proofs.«118158_j32899449488056_2_alg».proof.Proof.Gen.Kernel
import proofs.«118158_j32899449488056_2_alg».proof.Proof.Gen.Kernel.Skeleton
import proofs.«118158_j32899449488056_2_alg».proof.Proof.Gen.Kernel.Launch
import proofs.«118158_j32899449488056_2_alg».proof.Proof.Gen.Kernel.Points
import proofs.«118158_j32899449488056_2_alg».proof.Proof.Gen.Kernel.Frame
import proofs.«118158_j32899449488056_2_alg».proof.Proof.Gen.KernelIdeal
import proofs.«118158_j32899449488056_2_alg».proof.Proof.Gen.KernelIdeal.Skeleton
import proofs.«118158_j32899449488056_2_alg».proof.Proof.Gen.KernelIdeal.Launch
import proofs.«118158_j32899449488056_2_alg».proof.Proof.Gen.KernelIdeal.Points
import proofs.«118158_j32899449488056_2_alg».proof.Proof.Gen.KernelIdeal.Frame
import proofs.«118158_j32899449488056_2_alg».proof.Proof.Gen.ReferenceIdeal
import proofs.«118158_j32899449488056_2_alg».proof.Proof.Gen.Pre_finite_inputs
import proofs.«118158_j32899449488056_2_alg».proof.Proof.Gen.KernelIdeal.Value
import proofs.«118158_j32899449488056_2_alg».proof.Proof.Gen.ReferenceIdeal.Run
import proofs.«118158_j32899449488056_2_alg».proof.Proof.Gen.ReferenceIdeal.Read
import Idealize.ShloMosaic.Adequacy
import Idealize.ShloMosaic.Init
import proofs.«118158_j32899449488056_2_alg».proof.Proof.KernelArray
import proofs.«118158_j32899449488056_2_alg».proof.Proof.RefLayer
import proofs.«118158_j32899449488056_2_alg».proof.Proof.HostHops

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the layer of the argument's features, the two hop matrices (the same host term on both
    sides), and the weight, bias, gain and offset arguments. -/
theorem algebraic : Cert.algebraic_KernelIdeal_ReferenceIdeal := by
  intro m ρ m' ρ' _ hagree
  refine ⟨Cert.KernelIdeal.Whole.result m, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v72_eq, Cert.ReferenceIdeal.Layer.result_eq, a0, a1, a2, a3, a4, a5, a6, a7]
  unfold Cert.KernelIdeal.Whole.result
  rw [Cert.KernelIdeal.Host.hop1_eq, Cert.KernelIdeal.Host.hop2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
